-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x256 .f32) (main_arg5 : FVec F S128x128 .f32) (main_arg6 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : FVec F S800000x64 .f32) (main_arg3 : FVec F S128x64 .f32) (main_arg4 : FVec F S128x256 .f32) (main_arg5 : FVec F S128x128 .f32) (main_arg6 : FVec F S128x128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S64x128 : Shape := ⟨2, ![64, 128]⟩
abbrev S800000x128 : Shape := ⟨2, ![800000, 128]⟩
abbrev S16000x64 : Shape := ⟨2, ![16000, 64]⟩
abbrev S16000x128 : Shape := ⟨2, ![16000, 128]⟩
abbrev S16000 : Shape := ⟨1, ![16000]⟩
abbrev S16000x1 : Shape := ⟨2, ![16000, 1]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 43
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S64x128, .f32⟩
  | .hbm, ⟨10, _⟩ => ⟨S800000x128, .bf16⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S50000x1, .f32⟩
  | .hbm, ⟨42, _⟩ => ⟨S50000x128, .f32⟩
  | .local _ .vmem, ⟨0, _⟩ => ⟨S16000x64, .f32⟩
  | .local _ .vmem, ⟨1, _⟩ => ⟨S16000x64, .f32⟩
  | .local _ .vmem, ⟨2, _⟩ => ⟨S64x128, .f32⟩
  | .local _ .vmem, ⟨3, _⟩ => ⟨S16000x128, .bf16⟩
  | .local _ .vmem, ⟨4, _⟩ => ⟨S16000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S128x64_S64x128_1_0 : S128x64.Transposes [1, 0] S64x128
  inb_S16000x64_S16000x64_0_0 : ∀ a, (![0, 0] : Fin 2 → Nat) a + S16000x64.size a ≤ S16000x64.size a
  h_S16000x64 : 0 < S16000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S16000x128_S16000 : S16000x128.Reduces [1] S16000
  shapeCasts_S16000_S16000x1 : S16000.ShapeCasts S16000x1
  broadcasts_S16000x1_S16000x128 : S16000x1.Broadcasts S16000x128
  inb_S16000x128_S16000x128_0_0 : ∀ a, (![0, 0] : Fin 2 → Nat) a + S16000x128.size a ≤ S16000x128.size a
  h_S16000x128 : 0 < S16000x128.numel
  packedbf16_S16000x128_S16000x128_0_0 : (Rect.unit (s := S16000x128) ![0, 0] S16000x128.size inb_S16000x128_S16000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  dot_S16000x64_S64x128_S16000x128_1_0_0_1_n_n_wf : DotDims.WF S16000x64 S64x128 S16000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .f32 = 32 ∨ (Rect.block (s := S800000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S800000x128.size a
  hwx0_2 : ∀ i : grid0.Coords, EltTy.bits .bf16 = 32 ∨ (Rect.block (s := S800000x128) S16000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S128x64 : Shape := ⟨2, ![128, 64]⟩
abbrev S128x256 : Shape := ⟨2, ![128, 256]⟩
abbrev S128x128 : Shape := ⟨2, ![128, 128]⟩
abbrev S800000 : Shape := ⟨1, ![800000]⟩
abbrev S64x128 : Shape := ⟨2, ![64, 128]⟩
abbrev S800000x128 : Shape := ⟨2, ![800000, 128]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S50000 : Shape := ⟨1, ![50000]⟩
abbrev S50000x1 : Shape := ⟨2, ![50000, 1]⟩
abbrev S256x128 : Shape := ⟨2, ![256, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x64, .f32⟩
  | .hbm, ⟨3, _⟩ => ⟨S128x64, .f32⟩
  | .hbm, ⟨4, _⟩ => ⟨S128x256, .f32⟩
  | .hbm, ⟨5, _⟩ => ⟨S128x128, .f32⟩
  | .hbm, ⟨6, _⟩ => ⟨S128x128, .f32⟩
  | .hbm, ⟨7, _⟩ => ⟨S800000, .i32⟩
  | .hbm, ⟨8, _⟩ => ⟨S800000, .i32⟩
  | .hbm, ⟨9, _⟩ => ⟨S64x128, .f32⟩
  | .hbm, ⟨10, _⟩ => ⟨S800000x128, .f32⟩
  | .hbm, ⟨11, _⟩ => ⟨S_, .f32⟩
  | .hbm, ⟨12, _⟩ => ⟨S800000x128, .f32⟩
  | .hbm, ⟨13, _⟩ => ⟨S800000x128, .f32⟩
  | .hbm, ⟨14, _⟩ => ⟨S800000x128, .f32⟩
  | .hbm, ⟨15, _⟩ => ⟨S_, .f32⟩
  | .hbm, ⟨16, _⟩ => ⟨S800000, .f32⟩
  | .hbm, ⟨17, _⟩ => ⟨S800000x1, .f32⟩
  | .hbm, ⟨18, _⟩ => ⟨S800000x1, .f32⟩
  | .hbm, ⟨19, _⟩ => ⟨S_, .f32⟩
  | .hbm, ⟨20, _⟩ => ⟨S800000x1, .f32⟩
  | .hbm, ⟨21, _⟩ => ⟨S800000x1, .i1⟩
  | .hbm, ⟨22, _⟩ => ⟨S_, .f32⟩
  | .hbm, ⟨23, _⟩ => ⟨S800000x1, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x256, .f32⟩
  | .hbm, ⟨52, _⟩ => ⟨S50000x256, .f32⟩
  | .hbm, ⟨53, _⟩ => ⟨S256x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S50000x128, .f32⟩
  | .hbm, ⟨60, _⟩ => ⟨S128x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .i1⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_cst : Ref sig .tc := ⟨.hbm, 55, rfl⟩
abbrev main_call2_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_cst : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  transposes_S128x64_S64x128_1_0 : S128x64.Transposes [1, 0] S64x128
  bcast_S_S800000x128 : S_.BroadcastsInDim S800000x128 (![] : Fin 0 → Fin S800000x128.rank)
  reducesTo_S800000x128_S800000_d1 : S800000x128.ReducesTo [1] S800000
  h_S_ : 0 < S_.numel
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000 : S_.BroadcastsInDim S800000 (![] : Fin 0 → Fin S800000.rank)
  concatenates_S800000x128_S800000x128_S800000x256_d1 : Shape.Concatenates [S800000x128, S800000x128] S800000x256 1
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S_S50000x128 : S_.BroadcastsInDim S50000x128 (![] : Fin 0 → Fin S50000x128.rank)
  transposes_S128x128_S128x128_1_0 : S128x128.Transposes [1, 0] S128x128
  reducesTo_S50000x128_S50000_d1 : S50000x128.ReducesTo [1] S50000
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S800000x64_S64x128_S800000x128_1_0_0_1_n_n_wf : DotDims.WF S800000x64 S64x128 S800000x128 [1] [0] [0] [1] [] []
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its result read. The program is two grid kernels among host operations; every
  weakly fair execution from a memory with zero counters ends with each unscoped buffer of the TensorCore at the
  contents the four stretches leave in turn: the launch memory, then the first stretch of host operations, then the
  edge kernel's write-backs, then the second stretch of host operations, then the node kernel's write-backs. Read
  at the result buffer this names the program's result; read at the nine argument buffers it says they end
  as launched.
-/
import proofs.«113616_j35304631173416_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer holding what the last boundary's
    contents name for it and the nine arguments what they were launched with. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Result

end
-- ==== Proof.Algebra.lean ====
/-
  The arithmetic of the message-passing layer on the extended reals.

  Every destination node `v` averages its incoming messages by dividing by `d = max (deg v) 1`, where `deg v` is a
  count of edges: a natural number, so `d` is a real number `≥ 1` and dividing by it is multiplying by the
  non-negative real `1 / d`. Multiplication by a non-negative real distributes over every sum of extended reals
  (infinite summands included), so the average may be taken before or after the linear map that follows it:
  `∑ₖ (aₖ / d) · wₖ = (∑ₖ aₖ · wₖ) / d`, and a sum over the `256` joined coordinates is the sum over the first
  `128` plus the sum over the last `128`.
-/
import Idealize.ShloMosaic.PureOps.Ideal.Laws

open Idealize.ShloMosaic
open scoped BigOperators

noncomputable section

namespace Cert.Msg

/-- The float word of `1.0` denotes the real number one. -/
theorem ofBits_one_f32 : Ideal.ofBits .f32 0x3F800000#32 = ((1 : ℝ) : EReal) := by
  simp [Ideal.ofBits, Ideal.ieee]
  rw [← EReal.coe_mul]
  norm_num

/-- The two float words the programs use: zero and one. -/
abbrev c0 : EReal := Ideal.ofBits .f32 0x00000000#32
abbrev c1 : EReal := Ideal.ofBits .f32 0x3F800000#32

/-- Entry `j` of a row divided by the row's Euclidean norm `√(∑ₖ zₖ²)`, the norm replaced by one when it is zero. -/
def l2 {n : ℕ} (z : Fin n → EReal) (j : Fin n) : EReal :=
  Ideal.div (z j) (Scalar.select (Ideal.cmp .oeq (Ideal.sqrt (∑ k, z k * z k)) c0) c1 (Ideal.sqrt (∑ k, z k * z k)))

/-- Multiplying by a non-negative real distributes over a finite sum of extended reals. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A count: zero plus a sum of ones over a finite set is the set's cardinality, a real number. -/
theorem zero_add_sum_one {ι : Type*} (s : Finset ι) :
    Ideal.ofBits .f32 0x00000000#32 + ∑ _i ∈ s, Ideal.ofBits .f32 0x3F800000#32 = ((s.card : ℝ) : EReal) := by
  classical
  rw [Ideal.ofBits_zero_f32, zero_add, ofBits_one_f32]
  induction s using Finset.induction_on with
  | empty => simp
  | insert a s ha ih =>
    rw [Finset.sum_insert ha, ih, ← EReal.coe_add, Finset.card_insert_eq_ite, if_neg ha]
    refine congrArg _ ?_
    push_cast
    exact add_comm _ _

/-- The larger of a count and one is a real number, and it is not zero. -/
theorem max_count_one (n : ℕ) :
    max ((n : ℝ) : EReal) (Ideal.ofBits .f32 0x3F800000#32) = ((max (n : ℝ) 1 : ℝ) : EReal) := by
  rw [ofBits_one_f32]
  exact (EReal.coe_strictMono.monotone.map_max).symm

theorem max_count_one_ne (n : ℕ) : max (n : ℝ) 1 ≠ 0 := by
  have : (1 : ℝ) ≤ max (n : ℝ) 1 := le_max_right _ _
  intro h; rw [h] at this; norm_num at this

/-- THE LAW. Averaging the `256` joined coordinates by the degree and then applying a linear form is applying the
    form's two halves to the two halves of the coordinates and averaging afterwards. -/
theorem mean_linear (a1 a2 w1 w2 : Fin 128 → EReal) (a w : Fin 256 → EReal)
    (ha1 : ∀ k : Fin 128, a (Fin.castAdd 128 k) = a1 k) (ha2 : ∀ k : Fin 128, a (Fin.natAdd 128 k) = a2 k)
    (hw1 : ∀ k : Fin 128, w (Fin.castAdd 128 k) = w1 k) (hw2 : ∀ k : Fin 128, w (Fin.natAdd 128 k) = w2 k)
    (n : ℕ) :
    Ideal.div (∑ k, a1 k * w1 k + ∑ k, a2 k * w2 k) (max ((n : ℝ) : EReal) (Ideal.ofBits .f32 0x3F800000#32))
      = ∑ k : Fin 256, Ideal.div (a k) (max ((n : ℝ) : EReal) (Ideal.ofBits .f32 0x3F800000#32)) * w k := by
  rw [max_count_one]
  simp only [Ideal.div_coe (max_count_one_ne n)]
  have hc : (0 : ℝ) ≤ 1 / max (n : ℝ) 1 := by positivity
  generalize (1 / max (n : ℝ) 1 : ℝ) = c at hc
  rw [show (∑ k : Fin 256, a k * (c : EReal) * w k)
      = ∑ k : Fin 128, a (Fin.castAdd 128 k) * (c : EReal) * w (Fin.castAdd 128 k)
        + ∑ k : Fin 128, a (Fin.natAdd 128 k) * (c : EReal) * w (Fin.natAdd 128 k)
      from Fin.sum_univ_add (fun k : Fin (128 + 128) => a k * (c : EReal) * w k)]
  simp only [ha1, ha2, hw1, hw2]
  rw [EReal.right_distrib_of_nonneg_of_ne_top (by exact_mod_cast hc) (EReal.coe_ne_top c),
    sum_mul_coe _ _ hc, sum_mul_coe _ _ hc]
  congr 1 <;> exact Finset.sum_congr rfl fun k _ => (mul_right_comm _ _ _)

/-- The same with the sum of squares started from the zero word, as a reduction with an initial value computes it. -/
def l2z {n : ℕ} (z : Fin n → EReal) (j : Fin n) : EReal :=
  Ideal.div (z j) (Scalar.select (Ideal.cmp .oeq (Ideal.sqrt (c0 + ∑ k, z k * z k)) c0) c1 (Ideal.sqrt (c0 + ∑ k, z k * z k)))

theorem l2z_eq {n : ℕ} (z : Fin n → EReal) (j : Fin n) : l2z z j = l2 z j := by
  unfold l2z l2
  rw [show (c0 : EReal) + (∑ k, z k * z k) = ∑ k, z k * z k from by
    rw [show (c0 : EReal) = 0 from Ideal.ofBits_zero_f32, zero_add]]

/-- A node's hidden row, the linear map first and the average after: coordinate `k` is
    `max ((∑ a1·w1ₖ + ∑ a2·w2ₖ) / max d 1, 0)`. -/
def hn (a1 a2 : Fin 128 → EReal) (d : EReal) (w1 w2 : Fin 128 → Fin 128 → EReal) (k : Fin 128) : EReal :=
  max (Ideal.div (∑ k', a1 k' * w1 k' k + ∑ k', a2 k' * w2 k' k) (max d c1)) c0

/-- The same row, the average first and the linear map over the `256` joined coordinates after. -/
def hnJoined (a : Fin 256 → EReal) (d : EReal) (w : Fin 256 → Fin 128 → EReal) (k : Fin 128) : EReal :=
  max (∑ k' : Fin 256, Ideal.div (a k') (max d c1) * w k' k) c0

/-- A node's output row at `q`: `max (hs · ws + h · wn, 0)` normalised. -/
def outRow (hs h : Fin 128 → EReal) (ws wn : Fin 128 → Fin 128 → EReal) (q : Fin 128) : EReal :=
  l2 (fun j => max (∑ k, hs k * ws k j + ∑ k, h k * wn k j) c0) q

/-- The two orders give one hidden row when the divisor is a count. -/
theorem hn_eq_hnJoined (a1 a2 : Fin 128 → EReal) (w1 w2 : Fin 128 → Fin 128 → EReal)
    (a : Fin 256 → EReal) (w : Fin 256 → Fin 128 → EReal)
    (ha1 : ∀ k : Fin 128, a (Fin.castAdd 128 k) = a1 k) (ha2 : ∀ k : Fin 128, a (Fin.natAdd 128 k) = a2 k)
    (hw1 : ∀ (k' : Fin 128) (k : Fin 128), w (Fin.castAdd 128 k') k = w1 k' k)
    (hw2 : ∀ (k' : Fin 128) (k : Fin 128), w (Fin.natAdd 128 k') k = w2 k' k) (n : ℕ) (k : Fin 128) :
    hn a1 a2 ((n : ℝ) : EReal) w1 w2 k = hnJoined a ((n : ℝ) : EReal) w k := by
  unfold hn hnJoined
  exact congrArg (max · c0) (mean_linear a1 a2 (fun k' => w1 k' k) (fun k' => w2 k' k) a (fun k' => w k' k)
    ha1 ha2 (fun k' => hw1 k' k) (fun k' => hw2 k' k) n)

end Cert.Msg

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  The edge kernel's result array. Grid point `t` of the first kernel reads rows `16000·t … 16000·t + 15999` of
  the edge features and the whole transposed edge weight, and writes the same rows of its result: for an edge `e`
  the row `x_e = max(E_e · Wᵀ, 0)` divided by its Euclidean norm (by one when the norm is zero). The fifty blocks
  tile the `800000` rows, so the array after the kernel is that function of the two operand arrays at every index.
-/
import proofs.«113616_j35304631173416_2_alg».proof.Proof.Gen.KernelIdeal.Frame
import proofs.«113616_j35304631173416_2_alg».proof.Proof.Algebra
import proofs.«113616_j35304631173416_2_alg».proof.Proof.LibBlock
import proofs.«113616_j35304631173416_2_alg».proof.Proof.LibRowSum
import proofs.«113616_j35304631173416_2_alg».proof.Proof.LibColumn
import Idealize.ShloMosaic.Lib.Pipeline.Value
import Idealize.ShloMosaic.Lib.ValueIdx

set_option maxRecDepth 16384

noncomputable section

namespace Cert.KernelIdeal.Edge

open Cert.KernelIdeal Cert.KernelIdeal.Gen Cert.Msg
open Idealize.ShloMosaic Idealize.ShloMosaic.TcCoe Idealize.ShloMosaic.ValueIdx Idealize.SL.Sem
open Idealize.ShloMosaic.Pipeline (Dat)
open scoped BigOperators

/-- A block of rows normalised row by row, read at `(p, q)`: entry `q` of row `p` over the row's norm. The
    kernel computes the norm as a lane sum of squares laid out as a column and spread back over the lanes. -/
theorem l2_block {a : ℕ} (z : FVec Ideal ⟨2, ![a, 128]⟩ .f32)
    (hred : (⟨2, ![a, 128]⟩ : Shape).Reduces [1] ⟨1, ![a]⟩) (hφ : FKind.Formats FTy.f32)
    (hacc : (0x00000000#32 : BitVec FTy.f32.bits) = FKind.add.neutral .f32 hφ)
    (hsc : (⟨1, ![a]⟩ : Shape).ShapeCasts ⟨2, ![a, 1]⟩) (hbc : (⟨2, ![a, 1]⟩ : Shape).Broadcasts ⟨2, ![a, 128]⟩)
    (p : Fin a) (q : Fin 128) :
    divf z (broadcastTo ⟨2, ![a, 128]⟩
      (select (cmpf .oeq (sqrt (shapeCast ⟨2, ![a, 1]⟩ (multiReduction .add [1] ⟨1, ![a]⟩ (mulf z z) 0x00000000#32 hred hφ hacc) hsc))
          (broadcast ⟨2, ![a, 1]⟩ (Scalar.ofBits .f32 0x00000000#32)))
        (broadcast ⟨2, ![a, 1]⟩ (Scalar.ofBits .f32 0x3F800000#32))
        (sqrt (shapeCast ⟨2, ![a, 1]⟩ (multiReduction .add [1] ⟨1, ![a]⟩ (mulf z z) 0x00000000#32 hred hφ hacc) hsc))) hbc) (ix2 p q)
      = l2 (fun j => z (ix2 p j)) q := by
  show Ideal.div (z (ix2 p q)) (broadcastTo _ _ hbc (ix2 p q)) = _
  rw [LibColumn.broadcastTo_a1_ab_apply]
  show Ideal.div (z (ix2 p q)) (Scalar.select (Ideal.cmp .oeq (Ideal.sqrt (shapeCast _ _ hsc (ix2 p 0))) c0) c1
    (Ideal.sqrt (shapeCast _ _ hsc (ix2 p 0)))) = _
  rw [LibColumn.shapeCast_a_a1_apply, LibRowSum.multiReduction_add_lanes_apply]
  rfl

/-- The edge kernel's stored value at `(p, q)` of its block: the normalised row `max(x0_p · x1, 0)` at `q`. -/
theorem pay_apply (x0 : Vec Ideal S16000x64 .f32) (x1 : Vec Ideal S64x128 .f32) (p : Fin 16000) (q : Fin 128) :
    k0_pay1 (F := Ideal) x0 x1 (ix2 p q)
      = l2 (fun j : Fin 128 => max (∑ k : Fin 64, x0 (ix2 p k) * x1 (ix2 k j)) c0) q := by
  unfold k0_pay1
  refine (l2_block _ _ _ _ _ _ p q).trans ?_
  refine congrArg (fun z => l2 z q) (funext fun j => ?_)
  refine congrArg (max · c0) ((LibBlock.matmul_zero_ix2 _ rfl rfl rfl rfl rfl rfl none _ _ p j).trans ?_)
  refine Finset.sum_congr rfl fun k _ => ?_
  show x0 (ix2 p k) * shapeCast S64x128 x1 shapeCasts_S64x128_S64x128 (ix2 k j) = _
  rw [shapeCast_self]

/-- The edge features array as one function of the edge inputs `e : [800000, 64]` and the transposed weight
    `wt : [64, 128]`, index by index. -/
def eh (e : S800000x64.Idx → EReal) (wt : S64x128.Idx → EReal) : S800000x128.Idx → EReal := fun i =>
  l2 (fun j : Fin 128 => max (∑ k : Fin 64, e (ix2 (⟨(i 0).val, (i 0).isLt⟩ : Fin 800000) k) * wt (ix2 k j)) c0)
    (⟨(i 1).val, (i 1).isLt⟩ : Fin 128)

variable (V : (c : Dev nD) → (b : Ref sig .tc) → Buf (Elt Ideal) ((c : Thread nD τ).loc b))

/-- The printed index maps over the grid: point `t` takes row block `t` of the edge inputs and of the result, and the
    one block of the weight. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `eh` of the two operand arrays as the kernel finds them. -/
theorem flushed_eq (c : Dev nD) (t : Fin cfg0.N) :
    (dat0 V c).flushed 2 t = ((cfg0.win 2).blk t).view.read (Elt Ideal) (eh (V c main_arg2) (V c main_v0)) := by
  show (cfg0.win 2).cut (grid0.coords t) ((dat0 V c).after 2 t) = _
  rw [after0_2]
  unfold out0_2
  rw [View.canon_unit_zero LibBlock.hz]
  simp only [View.ld_unit_zero (S := S16000x64) LibBlock.hz, View.ld_unit_zero (S := S64x128) LibBlock.hz]
  obtain ⟨e0, e1, e2, e3, e4, e5⟩ := idx_facts t
  funext y
  obtain ⟨p, q, rfl⟩ : ∃ (p : Fin 16000) (q : Fin 128), y = ix2 p q := ⟨y 0, y 1, eq_ix2 y⟩
  show k0_pay1 (F := Ideal) (iblk0 V c 0 t) (iblk0 V c 1 t) (ix2 p q)
    = eh (V c main_arg2) (V c main_v0) (((cfg0.win 2).blk t).view.emb (ix2 p q))
  refine (pay_apply _ _ p q).trans ?_
  unfold eh
  have hq : (⟨((((cfg0.win 2).blk t).view.emb (ix2 p q)) 1).val, ((((cfg0.win 2).blk t).view.emb (ix2 p q)) 1).isLt⟩ : Fin 128) = q := by
    apply Fin.ext
    show win0_2.index t (1 : Fin 2) * 128 + 1 * q.val = q.val
    omega
  rw [hq]
  refine congrArg (fun z => l2 z q) (funext fun j => congrArg (max · c0) (Finset.sum_congr rfl fun k _ => ?_))
  have h0 : iblk0 V c 0 t (ix2 p k) = V c main_arg2 (ix2 (⟨((((cfg0.win 2).blk t).view.emb (ix2 p q)) 0).val, ((((cfg0.win 2).blk t).view.emb (ix2 p q)) 0).isLt⟩ : Fin 800000) k) := by
    show V c main_arg2 (((cfg0.win 0).blk t).view.emb (ix2 p k)) = _
    refine congrArg _ (funext fun a => Fin.ext ?_)
    match a with
    | ⟨0, _⟩ => show win0_0.index t (0 : Fin 2) * 16000 + 1 * p.val = win0_2.index t (0 : Fin 2) * 16000 + 1 * p.val; omega
    | ⟨1, _⟩ => show win0_0.index t (1 : Fin 2) * 64 + 1 * k.val = k.val; omega
  have h1 : iblk0 V c 1 t (ix2 k j) = V c main_v0 (ix2 k j) := by
    show V c main_v0 (((cfg0.win 1).blk t).view.emb (ix2 k j)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * j.val = j.val; omega
  rw [h0, h1]

/-- An index of the result array is in point `t`'s block iff each coordinate is in the block's range. -/
theorem mem_blk (t : Fin cfg0.N) (i : S800000x128.Idx) :
    i ∈ ((cfg0.win 2).blk t).view.set ↔ ∀ a : Fin 2, win0_2.index t a * S16000x128.size a ≤ (i a).val ∧ (i a).val < win0_2.index t a * S16000x128.size a + S16000x128.size a := by
  show i ∈ ((View.whole main_v1).slice (win0_2.rect t)).set ↔ _
  rw [View.set_slice_whole, Rect.mem_set_unit]
  exact Iff.rfl

/-- Every row lies in the block of the point `row / 16000`. -/
theorem cover (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  refine ⟨⟨(i 0).val / 16000, by show (i 0).val / 16000 < 50; omega⟩, flush0_2 _, ?_⟩
  rw [mem_blk]
  obtain ⟨-, -, -, -, e4, e5⟩ := idx_facts ⟨(i 0).val / 16000, by show (i 0).val / 16000 < 50; omega⟩
  intro a
  match a with
  | ⟨0, _⟩ =>
    show win0_2.index _ (0 : Fin 2) * 16000 ≤ (i 0).val ∧ (i 0).val < win0_2.index _ (0 : Fin 2) * 16000 + 16000
    rw [e4]; show (i 0).val / 16000 * 16000 ≤ (i 0).val ∧ (i 0).val < (i 0).val / 16000 * 16000 + 16000; omega
  | ⟨1, _⟩ =>
    show win0_2.index _ (1 : Fin 2) * 128 ≤ (i 1).val ∧ (i 1).val < win0_2.index _ (1 : Fin 2) * 128 + 128
    rw [e5]; omega

/-- The result array after the edge kernel: `eh` of the two operand arrays, whole. -/
theorem final (c : Dev nD) : (dat0 V c).arrAt 2 cfg0.N = eh (V c main_arg2) (V c main_v0) :=
  (dat0 V c).arrAt_eq_of_cover 2 (eh (V c main_arg2) (V c main_v0)) (fun t _ => flushed_eq V c t) cover

end Cert.KernelIdeal.Edge

end
-- ==== Proof.Region1.lean ====
/-
  The node kernel's result array. Grid point `t` of the second kernel reads rows `2000·t … 2000·t + 1999` of the
  two aggregates, of the degree column and of the nodes' own features, and the four whole weight matrices, and
  writes the same rows of the result. For a node `v` the hidden row is
  `h_v = max ((A1_v · W1 + A2_v · W2) / max (deg v) 1, 0)` and the output row is `max (HS_v · WS + h_v · WN, 0)` divided
  by its Euclidean norm (by one when the norm is zero). The twenty-five blocks tile the `50000` rows.
-/
import proofs.«113616_j35304631173416_2_alg».proof.Proof.Gen.KernelIdeal.Frame
import proofs.«113616_j35304631173416_2_alg».proof.Proof.Algebra
import proofs.«113616_j35304631173416_2_alg».proof.Proof.LibBlock
import proofs.«113616_j35304631173416_2_alg».proof.Proof.LibRowSum
import proofs.«113616_j35304631173416_2_alg».proof.Proof.LibColumn
import proofs.«113616_j35304631173416_2_alg».proof.Proof.Region0
import Idealize.ShloMosaic.Lib.Pipeline.Value
import Idealize.ShloMosaic.Lib.ValueIdx

set_option maxRecDepth 16384

noncomputable section

namespace Cert.KernelIdeal.Node

open Cert.KernelIdeal Cert.KernelIdeal.Gen Cert.Msg
open Idealize.ShloMosaic Idealize.ShloMosaic.TcCoe Idealize.ShloMosaic.ValueIdx Idealize.SL.Sem
open Idealize.ShloMosaic.Pipeline (Dat)
open scoped BigOperators

/-- A product of a block of rows with a whole `128 × 128` matrix, read at `(p, j)`. -/
theorem mm_apply (l : FVec Ideal S2000x128 .f32) (r : Vec Ideal S128x128 .f32) (p : Fin 2000) (j : Fin 128) :
    matmul dot_S2000x128_S128x128_S2000x128_1_0_0_1_n_n none (truncf .bf16 l bitsLt_bf16_f32)
        (truncf .bf16 (shapeCast S128x128 r shapeCasts_S128x128_S128x128) bitsLt_bf16_f32)
        (constant S2000x128 .f32 0x00000000#32) (ix2 p j)
      = ∑ k : Fin 128, l (ix2 p k) * r (ix2 k j) := by
  refine (LibBlock.matmul_zero_ix2 _ rfl rfl rfl rfl rfl rfl none _ _ p j).trans ?_
  refine Finset.sum_congr rfl fun k _ => ?_
  show l (ix2 p k) * shapeCast S128x128 r shapeCasts_S128x128_S128x128 (ix2 k j) = _
  rw [shapeCast_self]

/-- The node kernel's stored value at `(p, q)` of its block. -/
theorem pay_apply (x0 x1 : Vec Ideal S2000x128 .f32) (x2 : Vec Ideal S2000x1 .f32) (x3 : Vec Ideal S2000x128 .f32)
    (x4 x5 x6 x7 : Vec Ideal S128x128 .f32) (p : Fin 2000) (q : Fin 128) :
    k1_pay1 (F := Ideal) (k1_pay2 x0 x1 x4 x5 x2 x3 x6 x7) (k1_pay3 (F := Ideal)) (ix2 p q)
      = outRow (fun k => x3 (ix2 p k))
          (hn (fun k => x0 (ix2 p k)) (fun k => x1 (ix2 p k)) (x2 (ix2 p (0 : Fin 1)))
            (fun k' k => x4 (ix2 k' k)) (fun k' k => x5 (ix2 k' k)))
          (fun k j => x6 (ix2 k j)) (fun k j => x7 (ix2 k j)) q := by
  unfold k1_pay1
  refine (Edge.l2_block _ _ _ _ _ _ p q).trans ?_
  unfold outRow
  refine congrArg (fun z => l2 z q) (funext fun j => ?_)
  refine congrArg (max · c0) ?_
  unfold k1_pay2
  refine congrArg₂ (· + ·) ((mm_apply _ _ p j).trans rfl) ((LibBlock.matmul_zero_ix2 _ rfl rfl rfl rfl rfl rfl none _ _ p j).trans ?_)
  refine Finset.sum_congr rfl fun k _ => ?_
  refine congrArg₂ (· * ·) ?_ (by show shapeCast S128x128 x7 shapeCasts_S128x128_S128x128 (ix2 k j) = _; rw [shapeCast_self])
  unfold hn
  refine congrArg (max · c0) (congrArg₂ Ideal.div (congrArg₂ (· + ·) ((mm_apply _ _ p k).trans (by rw [shapeCast_self])) ((mm_apply _ _ p k).trans (by rw [shapeCast_self]))) ?_)
  refine (LibColumn.broadcastTo_a1_ab_apply _ _ p k).trans ?_
  show max (shapeCast S2000x1 x2 shapeCasts_S2000x1_S2000x1 (ix2 p (0 : Fin 1))) c1 = _
  rw [shapeCast_self]

/-- The result array as one function of the eight operand arrays, index by index. -/
def out (A1 A2 : S50000x128.Idx → EReal) (DG : S50000x1.Idx → EReal) (HS : S50000x128.Idx → EReal)
    (W1 W2 WS WN : S128x128.Idx → EReal) : S50000x128.Idx → EReal := fun i =>
  outRow (fun k => HS (ix2 (⟨(i 0).val, (i 0).isLt⟩ : Fin 50000) k))
    (hn (fun k => A1 (ix2 (⟨(i 0).val, (i 0).isLt⟩ : Fin 50000) k)) (fun k => A2 (ix2 (⟨(i 0).val, (i 0).isLt⟩ : Fin 50000) k))
      (DG (ix2 (⟨(i 0).val, (i 0).isLt⟩ : Fin 50000) (0 : Fin 1))) (fun k' k => W1 (ix2 k' k)) (fun k' k => W2 (ix2 k' k)))
    (fun k j => WS (ix2 k j)) (fun k j => WN (ix2 k j)) (⟨(i 1).val, (i 1).isLt⟩ : Fin 128)

variable (V : (c : Dev nD) → (b : Ref sig .tc) → Buf (Elt Ideal) ((c : Thread nD τ).loc b))

/-- The printed index maps over the grid: point `t` takes row block `t` of the four row-blocked operands and of the
    result, and the one block of each weight. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point `t` writes back is block `t` of `out` of the eight operand arrays as the kernel finds them. -/
theorem flushed_eq (c : Dev nD) (t : Fin cfg1.N) :
    (dat1 V c).flushed 8 t = ((cfg1.win 8).blk t).view.read (Elt Ideal)
      (out (V c main_v11) (V c main_v15) (V c main_v26) (V c main_arg1) (V c main_v21) (V c main_v23) (V c main_v24) (V c main_v25)) := by
  show (cfg1.win 8).cut (grid1.coords t) ((dat1 V c).after 8 t) = _
  rw [after1_8]
  unfold out1_8
  rw [View.canon_unit_zero LibBlock.hz]
  simp only [View.ld_unit_zero (S := S2000x128) LibBlock.hz, View.ld_unit_zero (S := S128x128) LibBlock.hz,
    View.ld_unit_zero (S := S2000x1) LibBlock.hz]
  obtain ⟨a0, a1, b0, b1, d0, d1, s0, s1, u0, u1, v0, v1, w0, w1, z0, z1, o0, o1⟩ := idx_facts t
  funext y
  obtain ⟨p, q, rfl⟩ : ∃ (p : Fin 2000) (q : Fin 128), y = ix2 p q := ⟨y 0, y 1, eq_ix2 y⟩
  show k1_pay1 (F := Ideal) (k1_pay2 (iblk1 V c 0 t) (iblk1 V c 1 t) (iblk1 V c 4 t) (iblk1 V c 5 t) (iblk1 V c 2 t) (iblk1 V c 3 t) (iblk1 V c 6 t) (iblk1 V c 7 t)) (k1_pay3 (F := Ideal)) (ix2 p q)
    = out (V c main_v11) (V c main_v15) (V c main_v26) (V c main_arg1) (V c main_v21) (V c main_v23) (V c main_v24) (V c main_v25) (((cfg1.win 8).blk t).view.emb (ix2 p q))
  refine (pay_apply _ _ _ _ _ _ _ _ p q).trans ?_
  unfold out
  have hq : (⟨((((cfg1.win 8).blk t).view.emb (ix2 p q)) 1).val, ((((cfg1.win 8).blk t).view.emb (ix2 p q)) 1).isLt⟩ : Fin 128) = q := by
    apply Fin.ext
    show win1_8.index t (1 : Fin 2) * 128 + 1 * q.val = q.val
    omega
  rw [hq]
  generalize hr : (⟨((((cfg1.win 8).blk t).view.emb (ix2 p q)) 0).val, ((((cfg1.win 8).blk t).view.emb (ix2 p q)) 0).isLt⟩ : Fin 50000) = r
  have hrv : r.val = t.val * 2000 + p.val := by
    rw [← hr]
    show win1_8.index t (0 : Fin 2) * 2000 + 1 * p.val = _
    omega
  have r0 : ∀ k : Fin 128, iblk1 V c 0 t (ix2 p k) = V c main_v11 (ix2 r k) := fun k => by
    show V c main_v11 (((cfg1.win 0).blk t).view.emb (ix2 p k)) = _
    refine congrArg _ (funext fun a => Fin.ext ?_)
    match a with
    | ⟨0, _⟩ => show win1_0.index t (0 : Fin 2) * 2000 + 1 * p.val = r.val; omega
    | ⟨1, _⟩ => show win1_0.index t (1 : Fin 2) * 128 + 1 * k.val = k.val; omega
  have r1 : ∀ k : Fin 128, iblk1 V c 1 t (ix2 p k) = V c main_v15 (ix2 r k) := fun k => by
    show V c main_v15 (((cfg1.win 1).blk t).view.emb (ix2 p k)) = _
    refine congrArg _ (funext fun a => Fin.ext ?_)
    match a with
    | ⟨0, _⟩ => show win1_1.index t (0 : Fin 2) * 2000 + 1 * p.val = r.val; omega
    | ⟨1, _⟩ => show win1_1.index t (1 : Fin 2) * 128 + 1 * k.val = k.val; omega
  have r2 : iblk1 V c 2 t (ix2 p (0 : Fin 1)) = V c main_v26 (ix2 r (0 : Fin 1)) := by
    show V c main_v26 (((cfg1.win 2).blk t).view.emb (ix2 p (0 : Fin 1))) = _
    refine congrArg _ (funext fun a => Fin.ext ?_)
    match a with
    | ⟨0, _⟩ => show win1_2.index t (0 : Fin 2) * 2000 + 1 * p.val = r.val; omega
    | ⟨1, _⟩ => show win1_2.index t (1 : Fin 2) * 1 + 1 * 0 = 0; omega
  have r3 : ∀ k : Fin 128, iblk1 V c 3 t (ix2 p k) = V c main_arg1 (ix2 r k) := fun k => by
    show V c main_arg1 (((cfg1.win 3).blk t).view.emb (ix2 p k)) = _
    refine congrArg _ (funext fun a => Fin.ext ?_)
    match a with
    | ⟨0, _⟩ => show win1_3.index t (0 : Fin 2) * 2000 + 1 * p.val = r.val; omega
    | ⟨1, _⟩ => show win1_3.index t (1 : Fin 2) * 128 + 1 * k.val = k.val; omega
  have r4 : ∀ k j : Fin 128, iblk1 V c 4 t (ix2 k j) = V c main_v21 (ix2 k j) := fun k j => by
    show V c main_v21 (((cfg1.win 4).blk t).view.emb (ix2 k j)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * j.val = j.val; omega
  have r5 : ∀ k j : Fin 128, iblk1 V c 5 t (ix2 k j) = V c main_v23 (ix2 k j) := fun k j => by
    show V c main_v23 (((cfg1.win 5).blk t).view.emb (ix2 k j)) = _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * j.val = j.val; omega
  have r6 : ∀ k j : Fin 128, iblk1 V c 6 t (ix2 k j) = V c main_v24 (ix2 k j) := fun k j => by
    show V c main_v24 (((cfg1.win 6).blk t).view.emb (ix2 k j)) = _
    refine congrArg _ (funext fun a => Fin.ext ?_)
    match a with
    | ⟨0, _⟩ => show win1_6.index t (0 : Fin 2) * 128 + 1 * k.val = k.val; omega
    | ⟨1, _⟩ => show win1_6.index t (1 : Fin 2) * 128 + 1 * j.val = j.val; omega
  have r7 : ∀ k j : Fin 128, iblk1 V c 7 t (ix2 k j) = V c main_v25 (ix2 k j) := fun k j => by
    show V c main_v25 (((cfg1.win 7).blk t).view.emb (ix2 k j)) = _
    refine congrArg _ (funext fun a => Fin.ext ?_)
    match a with
    | ⟨0, _⟩ => show win1_7.index t (0 : Fin 2) * 128 + 1 * k.val = k.val; omega
    | ⟨1, _⟩ => show win1_7.index t (1 : Fin 2) * 128 + 1 * j.val = j.val; omega
  simp only [r0, r1, r2, r3, r4, r5, r6, r7]

/-- An index of the result array is in point `t`'s block iff each coordinate is in the block's range. -/
theorem mem_blk (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v27).slice (win1_8.rect t)).set ↔ _
  rw [View.set_slice_whole, Rect.mem_set_unit]
  exact Iff.rfl

/-- Every row lies in the block of the point `row / 2000`. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  refine ⟨⟨(i 0).val / 2000, by show (i 0).val / 2000 < 25; omega⟩, flush1_8 _, ?_⟩
  rw [mem_blk]
  have hf := idx_facts ⟨(i 0).val / 2000, by show (i 0).val / 2000 < 25; omega⟩
  have e4 := hf.2.2.2.2.2.2.2.2.2.2.2.2.2.2.2.2.1
  have e5 := hf.2.2.2.2.2.2.2.2.2.2.2.2.2.2.2.2.2
  intro a
  match a with
  | ⟨0, _⟩ =>
    show win1_8.index _ (0 : Fin 2) * 2000 ≤ (i 0).val ∧ (i 0).val < win1_8.index _ (0 : Fin 2) * 2000 + 2000
    rw [e4]; show (i 0).val / 2000 * 2000 ≤ (i 0).val ∧ (i 0).val < (i 0).val / 2000 * 2000 + 2000; omega
  | ⟨1, _⟩ =>
    show win1_8.index _ (1 : Fin 2) * 128 ≤ (i 1).val ∧ (i 1).val < win1_8.index _ (1 : Fin 2) * 128 + 128
    rw [e5]; omega

/-- The result array after the node kernel: `out` of the eight operand arrays, whole. -/
theorem final (c : Dev nD) : (dat1 V c).arrAt 8 cfg1.N
    = out (V c main_v11) (V c main_v15) (V c main_v26) (V c main_arg1) (V c main_v21) (V c main_v23) (V c main_v24) (V c main_v25) :=
  (dat1 V c).arrAt_eq_of_cover 8 _ (fun t _ => flushed_eq V c t) cover

end Cert.KernelIdeal.Node

end
-- ==== Proof.HostSide.lean ====
/-
  The idealized kernel's result as one function of the nine argument arrays. Between the launch and the return the
  buffers pass through four stretches. The first host stretch transposes the edge weight; the edge kernel writes the
  normalised edge features; the second host stretch gathers the source nodes' rows, sums them and the edge features
  per destination node (a scatter-add into zeros at the column of destination indices), counts each node's incoming
  edges the same way, and lays out the four weight matrices; the node kernel writes the result. No stretch writes an
  argument, so every operand the stretches read is, in the end, an expression in the launch contents.
-/
import proofs.«113616_j35304631173416_2_alg».proof.Proof.Gen.KernelIdeal.Frame
import proofs.«113616_j35304631173416_2_alg».proof.Proof.Region0
import proofs.«113616_j35304631173416_2_alg».proof.Proof.Region1
import Idealize.ShloMosaic.PureOps.Ideal
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- Float and integer arrays of a shape, at the ideal values. -/
abbrev CF (s : Shape) : Type := (⟨s, .f32⟩ : BufTy).Contents (Elt Ideal)
abbrev CI (s : Shape) : Type := (⟨s, .i32⟩ : BufTy).Contents (Elt Ideal)

/-- The destination indices as a column. -/
def dcol (x8 : CI S800000) : CI S800000x1 := broadcastInDim S800000x1 ![0] bcast_S800000_S800000x1_0 x8
/-- The source indices, a negative one moved up by the number of nodes, as a column. -/
def scol (x7 : CI S800000) : CI S800000x1 :=
  broadcastInDim S800000x1 ![0] bcast_S800000_S800000x1_0
    (select (cmpi .slt x7 (broadcastInDim S800000 ![] bcast_S_S800000 (constantI S_ 32 0#32)))
      (addi x7 (broadcastInDim S800000 ![] bcast_S_S800000 (constantI S_ 32 50000#32))) x7)
/-- The source nodes' rows, one per edge. -/
def hsrc (x0 : CF S50000x128) (x7 : CI S800000) : CF S800000x128 :=
  Host.gather gather_S50000x128_S800000x1_S800000x128_1_0_n_n_0_1_1128 x0 (scol x7)
/-- Per destination node, the sum of its incoming edges' rows of `u`. -/
def agg (x8 : CI S800000) (u : CF S800000x128) : CF S50000x128 :=
  Host.scatterAdd (F := Ideal) scatter_S50000x128_S800000x1_S800000x128_1_0_0_1
    (broadcastInDim S50000x128 ![] bcast_S_S50000x128 (constant (F := Ideal) S_ .f32 0x00000000#32)) (dcol x8) u
/-- Per destination node, the number of its incoming edges. -/
def deg (x8 : CI S800000) : CF S50000 :=
  Host.scatterAdd (F := Ideal) scatter_S50000_S800000x1_S800000_n_0_0_1
    (broadcastInDim S50000 ![] bcast_S_S50000 (constant (F := Ideal) S_ .f32 0x00000000#32)) (dcol x8)
    (broadcastInDim S800000 ![] bcast_S_S800000 (constant (F := Ideal) S_ .f32 0x3F800000#32))
/-- The same as a column. -/
def degc (x8 : CI S800000) : CF S50000x1 := fun i => shapeCast S50000x1 (deg x8) shapeCasts_S50000_S50000x1 i
/-- A square weight transposed. -/
def tr (w : CF S128x128) : CF S128x128 := transpose S128x128 [1, 0] w transposes_S128x128_S128x128_1_0
/-- The two halves of the remap weight, each transposed. -/
def wr1 (x4 : CF S128x256) : CF S128x128 :=
  transpose S128x128 [1, 0] (extractStridedSlice S128x128 ![0, 0] x4 slices_S128x256_S128x128_0_0) transposes_S128x128_S128x128_1_0
def wr2 (x4 : CF S128x256) : CF S128x128 :=
  transpose S128x128 [1, 0] (extractStridedSlice S128x128 ![0, 128] x4 slices_S128x256_S128x128_0_128) transposes_S128x128_S128x128_1_0
/-- The edge weight transposed. -/
def wt (x3 : CF S128x64) : CF S64x128 := transpose S64x128 [1, 0] x3 transposes_S128x64_S64x128_1_0

variable (m : (ℓ : Loc nD τ sig) → Buf (Elt Ideal) ℓ) (ρ : Dev nD → PrngReg)

/-! ## What the edge kernel finds -/

theorem V1_arg2 (c : Dev nD) : V1 m ρ c main_arg2 = m ((c : Thread nD τ).loc main_arg2) := by
  show StableHlo.after hostOps0 (W0 m ρ c) (Proc.devRef .tc main_arg2) = _
  after_results_simp

theorem V1_v0 (c : Dev nD) : V1 m ρ c main_v0 = wt (m ((c : Thread nD τ).loc main_arg3)) := by
  show StableHlo.after hostOps0 (W0 m ρ c) (Proc.devRef .tc main_v0) = _
  after_results_simp; rfl

/-! ## The buffers after the edge kernel -/

theorem W2_v1 (c : Dev nD) : W2 m ρ c (Proc.devRef .tc main_v1)
    = Edge.eh (m ((c : Thread nD τ).loc main_arg2)) (wt (m ((c : Thread nD τ).loc main_arg3))) := by
  rw [show W2 m ρ c (Proc.devRef .tc main_v1) = (dat0 (V1 m ρ) c).arrAt 2 cfg0.N from W2_arr m ρ c 2,
    Edge.final (V1 m ρ) c, V1_arg2, V1_v0]

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results_simp
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp

/-! ## What the node kernel finds -/

theorem V3_v11 (c : Dev nD) : V3 m ρ c main_v11
    = agg (m ((c : Thread nD τ).loc main_arg8)) (hsrc (m ((c : Thread nD τ).loc main_arg0)) (m ((c : Thread nD τ).loc main_arg7))) := by
  show StableHlo.after hostOps1 (W2 m ρ c) (Proc.devRef .tc main_v11) = _
  after_results_simp
  rw [W2_arg0, W2_arg7, W2_arg8]; rfl

theorem V3_v15 (c : Dev nD) : V3 m ρ c main_v15
    = agg (m ((c : Thread nD τ).loc main_arg8))
        (extf (F := Ideal) .f32 (Edge.eh (m ((c : Thread nD τ).loc main_arg2)) (wt (m ((c : Thread nD τ).loc main_arg3)))) bitsLt_bf16_f32) := by
  show StableHlo.after hostOps1 (W2 m ρ c) (Proc.devRef .tc main_v15) = _
  after_results_simp
  rw [W2_v1, W2_arg8]; rfl

theorem V3_v26 (c : Dev nD) : V3 m ρ c main_v26 = degc (m ((c : Thread nD τ).loc main_arg8)) := by
  show StableHlo.after hostOps1 (W2 m ρ c) (Proc.devRef .tc main_v26) = _
  after_results_simp
  rw [W2_arg8]; rfl

theorem V3_arg1 (c : Dev nD) : V3 m ρ c main_arg1 = m ((c : Thread nD τ).loc main_arg1) := by
  show StableHlo.after hostOps1 (W2 m ρ c) (Proc.devRef .tc main_arg1) = _
  after_results_simp
  rw [W2_arg1]

theorem V3_v21 (c : Dev nD) : V3 m ρ c main_v21 = wr1 (m ((c : Thread nD τ).loc main_arg4)) := by
  show StableHlo.after hostOps1 (W2 m ρ c) (Proc.devRef .tc main_v21) = _
  after_results_simp
  rw [W2_arg4]; rfl

theorem V3_v23 (c : Dev nD) : V3 m ρ c main_v23 = wr2 (m ((c : Thread nD τ).loc main_arg4)) := by
  show StableHlo.after hostOps1 (W2 m ρ c) (Proc.devRef .tc main_v23) = _
  after_results_simp
  rw [W2_arg4]; rfl

theorem V3_v24 (c : Dev nD) : V3 m ρ c main_v24 = tr (m ((c : Thread nD τ).loc main_arg5)) := by
  show StableHlo.after hostOps1 (W2 m ρ c) (Proc.devRef .tc main_v24) = _
  after_results_simp
  rw [W2_arg5]; rfl

theorem V3_v25 (c : Dev nD) : V3 m ρ c main_v25 = tr (m ((c : Thread nD τ).loc main_arg6)) := by
  show StableHlo.after hostOps1 (W2 m ρ c) (Proc.devRef .tc main_v25) = _
  after_results_simp
  rw [W2_arg6]; rfl

/-- The program's result buffer at the return, as a function of the launch contents of the arguments. -/
theorem result_eq (c : Dev nD) : W4 m ρ c (Proc.devRef .tc main_v27)
    = Node.out
        (agg (m ((c : Thread nD τ).loc main_arg8)) (hsrc (m ((c : Thread nD τ).loc main_arg0)) (m ((c : Thread nD τ).loc main_arg7))))
        (agg (m ((c : Thread nD τ).loc main_arg8))
          (extf (F := Ideal) .f32 (Edge.eh (m ((c : Thread nD τ).loc main_arg2)) (wt (m ((c : Thread nD τ).loc main_arg3)))) bitsLt_bf16_f32))
        (degc (m ((c : Thread nD τ).loc main_arg8))) (m ((c : Thread nD τ).loc main_arg1))
        (wr1 (m ((c : Thread nD τ).loc main_arg4))) (wr2 (m ((c : Thread nD τ).loc main_arg4)))
        (tr (m ((c : Thread nD τ).loc main_arg5))) (tr (m ((c : Thread nD τ).loc main_arg6))) := by
  rw [show W4 m ρ c (Proc.devRef .tc main_v27) = (dat1 (V3 m ρ) c).arrAt 8 cfg1.N from W4_arr m ρ c 8,
    Node.final (V3 m ρ) c, V3_v11, V3_v15, V3_v26, V3_arg1, V3_v21, V3_v23, V3_v24, V3_v25]

end Cert.KernelIdeal.Host

end
-- ==== Proof.RefSide.lean ====
/-
  The reference's result read at an index. For a node `p` and an output coordinate `q` the reference computes the
  row `max (x1_p · W_selfᵀ + h_p · W_neighᵀ, 0)` normalised, where the hidden row is
  `h_p = max (∑ over the 256 joined coordinates k' of (agg_p k' / max (deg p) 1) · W_remap (k, k'), 0)`: the average
  is taken first and the linear map second. The edge features are, for an edge `e`, the row `max (E_e · W_edgeᵀ, 0)`
  normalised. The aggregate and the degree (a scatter-add and a count) are left as the reference names them here.
-/
import proofs.«113616_j35304631173416_2_alg».proof.Proof.Gen.ReferenceIdeal.Read
import proofs.«113616_j35304631173416_2_alg».proof.Proof.Algebra
import Idealize.ShloMosaic.Lib.ValueIdx

set_option maxRecDepth 16384

noncomputable section

namespace Cert.ReferenceIdeal.RefValue

open Cert.ReferenceIdeal Cert.ReferenceIdeal.Gen Cert.ReferenceIdeal.Read Cert.Msg
open Idealize.ShloMosaic Idealize.ShloMosaic.TcCoe Idealize.ShloMosaic.ValueIdx Idealize.SL.Sem
open scoped BigOperators

/-- Float and integer arrays of a shape, at the ideal values. -/
abbrev CF (s : Shape) : Type := (⟨s, .f32⟩ : BufTy).Contents (Elt Ideal)
abbrev CI (s : Shape) : Type := (⟨s, .i32⟩ : BufTy).Contents (Elt Ideal)

local macro "idx2" : tactic =>
  `(tactic| (funext a; refine Fin.ext ?_; match a with | ⟨0, _⟩ => rfl | ⟨1, _⟩ => rfl))
local macro "idx1" : tactic =>
  `(tactic| (funext a; refine Fin.ext ?_; match a with | ⟨0, _⟩ => rfl))

/-- A float comparison at the ideal values compares the extended reals. -/
theorem cmpf_ideal (p : CmpFPredicate) (x y : Ideal .f32) : FloatOps.cmpf (F := Ideal) p x y = Ideal.cmp p x y := rfl

/-- The edge features at `(e, q)`: entry `q` of the normalised row `max (E_e · W_edgeᵀ, 0)`. -/
theorem edge_apply (x2 : CF S800000x64) (x3 : CF S128x64) (e : Fin 800000) (q : Fin 128) :
    val_main_v12 (F := Ideal) x2 x3 (ix2 e q)
      = l2z (fun j : Fin 128 => max (∑ k : Fin 64, x2 (ix2 e k) * x3 (ix2 j k)) c0) q := by
  have i11 : idx_main_v11 (ix2 e q) = ix2 e (0 : Fin 1) := by idx2
  have i5 : idx_main_v5 (ix2 e (0 : Fin 1)) = ix1 e := by idx1
  have i4 : ∀ k : Fin 128, idx_main_v4 (ix1 e) k = ix2 e k := fun k => by idx2
  have il : ∀ (j : Fin 128) (k : Fin 64), lidx_main_v1 (ix2 e j) k = ix2 e k := fun j k => by idx2
  have ir : ∀ (j : Fin 128) (k : Fin 64), ridx_main_v1 (ix2 e j) k = ix2 k j := fun j k => by idx2
  have i0 : ∀ (j : Fin 128) (k : Fin 64), idx_main_v0 (ix2 k j) = ix2 j k := fun j k => by idx2
  have hv2 : ∀ j : Fin 128, val_main_v2 (F := Ideal) x2 x3 (ix2 e j)
      = max (∑ k : Fin 64, x2 (ix2 e k) * x3 (ix2 j k)) c0 := fun j => by
    rw [val_main_v2_apply, val_main_v1_apply, val_main_call0_v0_apply, val_main_call0_cst_apply]
    simp only [il, ir, val_main_v0_apply, i0, Ideal.maximumf_def, Ideal.ofBits_def]
  rw [val_main_v12_apply, val_main_v11_apply, i11, val_main_v10_apply, val_main_v8_apply, val_main_v9_apply,
    val_main_cst_1_apply, val_main_v7_apply, val_main_cst_0_apply, val_main_v6_apply, val_main_v5_apply, i5,
    val_main_v4_apply, val_main_cst_apply]
  simp only [i4, val_main_v3_apply, hv2, Ideal.ofBits_def, Ideal.hostDivf_def, Ideal.hostUnary_sqrt_def, Ideal.mulf_def,
    cmpf_ideal]
  unfold l2z
  rfl

/-- The reference's result at `(p, q)`. -/
theorem node_apply (x0 x1 : CF S50000x128) (x2 : CF S800000x64) (x3 : CF S128x64) (x4 : CF S128x256)
    (x5 x6 : CF S128x128) (x7 x8 : CI S800000) (p : Fin 50000) (q : Fin 128) :
    val_main_v51 (F := Ideal) x0 x1 x2 x3 x4 x5 x6 x7 x8 (ix2 p q)
      = l2z (fun j : Fin 128 => max (∑ k : Fin 128, x1 (ix2 p k) * x5 (ix2 j k)
          + ∑ k : Fin 128, hnJoined (fun k' : Fin 256 => val_main_v23 (F := Ideal) x0 x2 x3 x7 x8 (ix2 p k'))
              (val_main_v27 (F := Ideal) x8 (ix1 p)) (fun (k' : Fin 256) (k : Fin 128) => x4 (ix2 k k')) k * x6 (ix2 j k)) c0) q := by
  have i50 : idx_main_v50 (ix2 p q) = ix2 p (0 : Fin 1) := by idx2
  have i44 : idx_main_v44 (ix2 p (0 : Fin 1)) = ix1 p := by idx1
  have i43 : ∀ k : Fin 128, idx_main_v43 (ix1 p) k = ix2 p k := fun k => by idx2
  have il37 : ∀ (j k : Fin 128), lidx_main_v37 (ix2 p j) k = ix2 p k := fun j k => by idx2
  have ir37 : ∀ (j k : Fin 128), ridx_main_v37 (ix2 p j) k = ix2 k j := fun j k => by idx2
  have il39 : ∀ (j k : Fin 128), lidx_main_v39 (ix2 p j) k = ix2 p k := fun j k => by idx2
  have ir39 : ∀ (j k : Fin 128), ridx_main_v39 (ix2 p j) k = ix2 k j := fun j k => by idx2
  have i36 : ∀ (j k : Fin 128), idx_main_v36 (ix2 k j) = ix2 j k := fun j k => by idx2
  have i38 : ∀ (j k : Fin 128), idx_main_v38 (ix2 k j) = ix2 j k := fun j k => by idx2
  have il34 : ∀ (k : Fin 128) (k' : Fin 256), lidx_main_v34 (ix2 p k) k' = ix2 p k' := fun k k' => by idx2
  have ir34 : ∀ (k : Fin 128) (k' : Fin 256), ridx_main_v34 (ix2 p k) k' = ix2 k' k := fun k k' => by idx2
  have i33 : ∀ (k : Fin 128) (k' : Fin 256), idx_main_v33 (ix2 k' k) = ix2 k k' := fun k k' => by idx2
  have i31 : ∀ k' : Fin 256, idx_main_v31 (ix2 p k') = ix2 p (0 : Fin 1) := fun k' => by idx2
  have i30 : idx_main_v30 (ix2 p (0 : Fin 1)) = ix1 p := by idx1
  have hd : ∀ k' : Fin 256, val_main_v31 (F := Ideal) x8 (ix2 p k') = max (val_main_v27 (F := Ideal) x8 (ix1 p)) c1 := fun k' => by
    rw [val_main_v31_apply, i31, val_main_v30_apply, i30, val_main_v29_apply, val_main_v28_apply, val_main_cst_6_apply]
    simp only [Ideal.maximumf_def, Ideal.ofBits_def]
  have hv35 : ∀ k : Fin 128, val_main_v35 (F := Ideal) x0 x2 x3 x4 x7 x8 (ix2 p k)
      = hnJoined (fun k' : Fin 256 => val_main_v23 (F := Ideal) x0 x2 x3 x7 x8 (ix2 p k'))
          (val_main_v27 (F := Ideal) x8 (ix1 p)) (fun (k' : Fin 256) (k : Fin 128) => x4 (ix2 k k')) k := fun k => by
    rw [val_main_v35_apply, val_main_v34_apply, val_main_call2_v0_apply, val_main_call2_cst_apply]
    simp only [il34, ir34, val_main_v33_apply, i33]
    rw [Ideal.maximumf_def, Ideal.ofBits_def]
    unfold hnJoined
    refine congrArg (max · c0) (Finset.sum_congr rfl fun k' _ => congrArg (· * x4 (ix2 k k')) ?_)
    rw [val_main_v32_apply, hd k']
    exact Ideal.hostDivf_def _ _
  have hv41 : ∀ j : Fin 128, val_main_v41 (F := Ideal) x0 x1 x2 x3 x4 x5 x6 x7 x8 (ix2 p j)
      = max (∑ k : Fin 128, x1 (ix2 p k) * x5 (ix2 j k)
          + ∑ k : Fin 128, hnJoined (fun k' : Fin 256 => val_main_v23 (F := Ideal) x0 x2 x3 x7 x8 (ix2 p k'))
              (val_main_v27 (F := Ideal) x8 (ix1 p)) (fun (k' : Fin 256) (k : Fin 128) => x4 (ix2 k k')) k * x6 (ix2 j k)) c0 := fun j => by
    rw [val_main_v41_apply, val_main_v40_apply, val_main_v37_apply, val_main_v39_apply, val_main_call3_v0_apply,
      val_main_call3_cst_apply]
    simp only [il37, ir37, il39, ir39, val_main_v36_apply, i36, val_main_v38_apply, i38, hv35, Ideal.maximumf_def,
      Ideal.ofBits_def, Ideal.addf_def]
  rw [val_main_v51_apply, val_main_v50_apply, i50, val_main_v49_apply, val_main_v47_apply, val_main_v48_apply,
    val_main_cst_9_apply, val_main_v46_apply, val_main_cst_8_apply, val_main_v45_apply, val_main_v44_apply, i44,
    val_main_v43_apply, val_main_cst_7_apply]
  simp only [i43, val_main_v42_apply, hv41, Ideal.ofBits_def, Ideal.hostDivf_def, Ideal.hostUnary_sqrt_def, Ideal.mulf_def,
    cmpf_ideal]
  unfold l2z
  rfl

end Cert.ReferenceIdeal.RefValue

end
-- ==== Proof.LibGatherScatter.lean ====
/-
  Two index-driven array operations read at one element, for a column of indices.

  A gather of whole rows of an `N × C` array (or of single elements of an `N`-vector) at an `E × 1` column of start
  indices reads the operand at the start index, taken as a signed integer and clamped into `[0, N − 1]`.
  A float scatter-add of `E` rows (or single elements) at an `E × 1` column of scatter indices is, at output row `v`,
  the operand plus the sum over the update rows `e` whose index, taken as a signed integer and NOT clamped, is exactly `v`;
  an update whose index lies outside `[0, N − 1]` contributes nothing. The sums are in the extended reals, an additive
  commutative monoid: no finiteness is assumed.

  Every lemma is generic in the extents and the index width; the dimension numbers are given by equations on the
  record's fields, so a lemma applies to any record with those fields.
-/
import Idealize.ShloMosaic.PureOps.Ideal
import Idealize.ShloMosaic.Lib.ValueIdx

open Idealize.ShloMosaic Idealize.ShloMosaic.ValueIdx
open scoped BigOperators

namespace Cert.GatherScatter

/-! ## Gather of whole rows, and of single elements, at a column of start indices -/

section Gather
variable {α : Type}

/-- The dimension numbers of a gather of whole rows of an `N × C` operand at an `E × 1` column of start indices. -/
private abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

private theorem gather_rows_lit {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the collapsed axis: the clamped start index, no batching and no offset coordinate
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the kept axis: start 0, no batching coordinate, the offset coordinate is the column
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show (1 : Fin 2) ∉ ([0] : List (Fin 2)) by decide)]
    have ho : (rowsDims N E C wf).offCoord (ix2 e c) 1 = c.val := by
      unfold GatherDims.offCoord
      rw [dif_pos ((GatherDims.mem_sKept _ _).mpr
        ⟨(show (1 : Fin 2) ∉ ([0] : List (Fin 2)) by decide), List.not_mem_nil⟩)]
      rfl
    rw [hs, ho]; omega

/-- A gather of whole rows of an `N × C` operand at an `E × 1` column of start indices, read at `(e, c)`: the
    operand's row at the start index `idx[e, 0]`, read signed and clamped into `[0, N − 1]`, at column `c`. -/
theorem gather_rows_apply {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) :
    Host.gather d x idx (ix2 e c) = x (ix2 (⟨min (idx (ix2 e (0 : Fin 1))).toInt.toNat (N - 1), by omega⟩ : Fin N) c) := by
  obtain ⟨od, cd, ob, sb, sm, iv, ss, wf⟩ := d
  simp only at hod hcd hob hsb hsm hiv hss
  subst hod hcd hob hsb hsm hiv hss
  exact gather_rows_lit hN wf x idx e c

/-- The dimension numbers of a gather of single elements of an `N`-vector at an `E × 1` column of start indices. -/
private abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

private theorem gather_vec_lit {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A gather of single elements of an `N`-vector at an `E × 1` column of start indices, read at `e`: the operand
    at the start index `idx[e, 0]`, read signed and clamped into `[0, N − 1]`. -/
theorem gather_vec_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (⟨min (idx (ix2 e (0 : Fin 1))).toInt.toNat (N - 1), by omega⟩ : Fin N)) := by
  obtain ⟨od, cd, ob, sb, sm, iv, ss, wf⟩ := d
  simp only at hod hcd hob hsb hsm hiv hss
  subst hod hcd hob hsb hsm hiv hss
  exact gather_vec_lit hN wf x idx e

end Gather

/-! ## The float scatter-add of rows, and of single elements, at a column of scatter indices -/

section Scatter

/-- A sum over a rank-1 index set is the sum over its one coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The dimension numbers of a scatter of `E` rows of length `C` into an `N × C` operand at an `E × 1` column of
    scatter indices. -/
private abbrev sRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the scatter index, read signed. -/
private theorem sRows_start0 :
    (sRowsDims N E C wf).start (ix2 e c) idx 0 = (idx (ix2 e (0 : Fin 1))).toInt := by
  unfold ScatterDims.start
  rw [dif_pos (show (0 : Fin 2) ∈ (sRowsDims N E C wf).scatterDimsToOperandDims from List.mem_singleton.mpr rfl)]
  have hsi : (sRowsDims N E C wf).siIdx (ix2 e c) ⟨List.idxOf (0 : Fin 2) (sRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
private theorem sRows_start1 : (sRowsDims N E C wf).start (ix2 e c) idx 1 = 0 := by
  unfold ScatterDims.start
  rw [dif_neg (show (1 : Fin 2) ∉ ([0] : List (Fin 2)) by decide)]

/-- The row axis is inserted: its window coordinate is `0`. -/
private theorem sRows_window0 : (sRowsDims N E C wf).window (ix2 e c) 0 = 0 := by
  unfold ScatterDims.window
  have hk : (0 : Fin 2) ∉ (sRowsDims N E C wf).sKept :=
    (by decide : (0 : Fin 2) ∉ (List.finRange 2).filter (· ∉ ([0] : List (Fin 2))))
  rw [dif_neg hk]

/-- The column axis's window coordinate is the update's column. -/
private theorem sRows_window1 : (sRowsDims N E C wf).window (ix2 e c) 1 = c.val := by
  unfold ScatterDims.window
  have hk : (1 : Fin 2) ∈ (sRowsDims N E C wf).sKept :=
    (by decide : (1 : Fin 2) ∈ (List.finRange 2).filter (· ∉ ([0] : List (Fin 2))))
  rw [dif_pos hk]
  rfl

/-- Update element `(e, c)` lands on operand element `(v, c')` exactly when its scatter index, read signed, is `v`
    and the columns agree. -/
private theorem sRows_resultIdx_iff (v : Fin N) (c' : Fin C) :
    (sRowsDims N E C wf).resultIdx? (ix2 e c) idx = some (ix2 v c')
      ↔ (idx (ix2 e (0 : Fin 1))).toInt = (v.val : Int) ∧ c = c' := by
  have h0 := sRows_start0 wf idx e c
  have h1 := sRows_start1 wf idx e c
  have w0 := sRows_window0 wf e c
  have w1 := sRows_window1 wf e c
  unfold ScatterDims.resultIdx?
  split
  · rename_i h
    rw [Option.some.injEq]
    constructor
    · intro heq
      have e0 := congrArg Fin.val (congrFun heq 0)
      have e1 := congrArg Fin.val (congrFun heq 1)
      have b0 := (h 0).1
      change (((sRowsDims N E C wf).start (ix2 e c) idx 0 + ((sRowsDims N E C wf).window (ix2 e c) 0 : Nat)).toNat) = v.val at e0
      change (((sRowsDims N E C wf).start (ix2 e c) idx 1 + ((sRowsDims N E C wf).window (ix2 e c) 1 : Nat)).toNat) = c'.val at e1
      rw [h0, w0] at e0 b0
      rw [h1, w1] at e1
      refine ⟨by omega, Fin.ext (by omega)⟩
    · rintro ⟨hv, rfl⟩
      funext a
      refine Fin.ext ?_
      match a with
      | ⟨0, _⟩ =>
        show (((sRowsDims N E C wf).start (ix2 e c) idx 0 + ((sRowsDims N E C wf).window (ix2 e c) 0 : Nat)).toNat) = v.val
        rw [h0, w0]; omega
      | ⟨1, _⟩ =>
        show (((sRowsDims N E C wf).start (ix2 e c) idx 1 + ((sRowsDims N E C wf).window (ix2 e c) 1 : Nat)).toNat) = c.val
        rw [h1, w1]; omega
  · rename_i h
    constructor
    · intro heq; exact absurd heq (by simp)
    · rintro ⟨hv, rfl⟩
      refine absurd (fun a => ?_) h
      match a with
      | ⟨0, _⟩ =>
        show 0 ≤ (sRowsDims N E C wf).start (ix2 e c) idx 0 + ((sRowsDims N E C wf).window (ix2 e c) 0 : Nat)
          ∧ (sRowsDims N E C wf).start (ix2 e c) idx 0 + ((sRowsDims N E C wf).window (ix2 e c) 0 : Nat) < (N : Int)
        rw [h0, w0]; have := v.isLt; omega
      | ⟨1, _⟩ =>
        show 0 ≤ (sRowsDims N E C wf).start (ix2 e c) idx 1 + ((sRowsDims N E C wf).window (ix2 e c) 1 : Nat)
          ∧ (sRowsDims N E C wf).start (ix2 e c) idx 1 + ((sRowsDims N E C wf).window (ix2 e c) 1 : Nat) < (C : Int)
        rw [h1, w1]; have := c.isLt; omega

end Rows

private theorem scatterAdd_rows_lit {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (sRowsDims N E C wf) x idx upd (ix2 v c)
      = x (ix2 v c) + ∑ e ∈ Finset.univ.filter (fun e : Fin E => (idx (ix2 e (0 : Fin 1))).toInt = (v.val : Int)), upd (ix2 e c) := by
  unfold Ideal.hostScatterAdd
  congr 1
  rw [Finset.sum_filter, Finset.sum_filter, sum_idx2]
  refine Finset.sum_congr rfl (fun e _ => ?_)
  simp only [sRows_resultIdx_iff wf idx e _ v c]
  by_cases hv : (idx (ix2 e (0 : Fin 1))).toInt = (v.val : Int)
  · simp only [hv, true_and, if_true]
    exact Finset.sum_ite_eq' Finset.univ c (fun c' => upd (ix2 e c')) |>.trans (if_pos (Finset.mem_univ c))
  · simp only [hv, false_and, if_false]
    exact Finset.sum_const_zero

/-- The host's float scatter-add of `E` rows into an `N × C` operand at an `E × 1` column of scatter indices, read
    at `(v, c)`: the operand plus the sum, over the update rows `e` whose index word `idx[e, 0]`, read signed and not
    clamped, is exactly `v`, of the update's element `(e, c)`. -/
theorem scatterAdd_rows_apply {N E C w : Nat}
    (d : ScatterDims ⟨2, ![N, C]⟩ ⟨2, ![E, 1]⟩ ⟨2, ![E, C]⟩)
    (huw : d.updateWindowDims = [1]) (hiw : d.insertedWindowDims = [0]) (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal) (v : Fin N) (c : Fin C) :
    Ideal.hostScatterAdd d x idx upd (ix2 v c)
      = x (ix2 v c) + ∑ e ∈ Finset.univ.filter (fun e : Fin E => (idx (ix2 e (0 : Fin 1))).toInt = (v.val : Int)), upd (ix2 e c) := by
  obtain ⟨uw, iw, sd, iv, wf⟩ := d
  simp only at huw hiw hsd hiv
  subst huw hiw hsd hiv
  exact scatterAdd_rows_lit wf x idx upd v c

/-- The dimension numbers of a scatter of `E` single elements into an `N`-vector at an `E × 1` column of scatter
    indices. -/
private abbrev sVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window starts at the scatter index, read signed. -/
private theorem sVec_start0 :
    (sVecDims N E wf).start (ix1 e) idx 0 = (idx (ix2 e (0 : Fin 1))).toInt := by
  unfold ScatterDims.start
  rw [dif_pos (show (0 : Fin 1) ∈ (sVecDims N E wf).scatterDimsToOperandDims from List.mem_singleton.mpr rfl)]
  have hsi : (sVecDims N E wf).siIdx (ix1 e) ⟨List.idxOf (0 : Fin 1) (sVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- That axis is inserted: its window coordinate is `0`. -/
private theorem sVec_window0 : (sVecDims N E wf).window (ix1 e) 0 = 0 := by
  unfold ScatterDims.window
  have hk : (0 : Fin 1) ∉ (sVecDims N E wf).sKept :=
    (by decide : (0 : Fin 1) ∉ (List.finRange 1).filter (· ∉ ([0] : List (Fin 1))))
  rw [dif_neg hk]

/-- Update element `e` lands on operand element `v` exactly when its scatter index, read signed, is `v`. -/
private theorem sVec_resultIdx_iff (v : Fin N) :
    (sVecDims N E wf).resultIdx? (ix1 e) idx = some (ix1 v) ↔ (idx (ix2 e (0 : Fin 1))).toInt = (v.val : Int) := by
  have h0 := sVec_start0 wf idx e
  have w0 := sVec_window0 wf e
  unfold ScatterDims.resultIdx?
  split
  · rename_i h
    rw [Option.some.injEq]
    constructor
    · intro heq
      have e0 := congrArg Fin.val (congrFun heq 0)
      have b0 := (h 0).1
      change (((sVecDims N E wf).start (ix1 e) idx 0 + ((sVecDims N E wf).window (ix1 e) 0 : Nat)).toNat) = v.val at e0
      rw [h0, w0] at e0 b0
      omega
    · intro hv
      funext a
      refine Fin.ext ?_
      match a with
      | ⟨0, _⟩ =>
        show (((sVecDims N E wf).start (ix1 e) idx 0 + ((sVecDims N E wf).window (ix1 e) 0 : Nat)).toNat) = v.val
        rw [h0, w0]; omega
  · rename_i h
    constructor
    · intro heq; exact absurd heq (by simp)
    · intro hv
      refine absurd (fun a => ?_) h
      match a with
      | ⟨0, _⟩ =>
        show 0 ≤ (sVecDims N E wf).start (ix1 e) idx 0 + ((sVecDims N E wf).window (ix1 e) 0 : Nat)
          ∧ (sVecDims N E wf).start (ix1 e) idx 0 + ((sVecDims N E wf).window (ix1 e) 0 : Nat) < (N : Int)
        rw [h0, w0]; have := v.isLt; omega

end Vec

private theorem scatterAdd_vec_lit {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (sVecDims N E wf) x idx upd (ix1 v)
      = x (ix1 v) + ∑ e ∈ Finset.univ.filter (fun e : Fin E => (idx (ix2 e (0 : Fin 1))).toInt = (v.val : Int)), upd (ix1 e) := by
  unfold Ideal.hostScatterAdd
  congr 1
  rw [Finset.sum_filter, Finset.sum_filter, sum_idx1]
  refine Finset.sum_congr rfl (fun e _ => ?_)
  simp only [sVec_resultIdx_iff wf idx e v]

/-- The host's float scatter-add of `E` single elements into an `N`-vector at an `E × 1` column of scatter indices,
    read at `v`: the operand plus the sum, over the updates `e` whose index word `idx[e, 0]`, read signed and not
    clamped, is exactly `v`, of the update's element `e`. -/
theorem scatterAdd_vec_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![E, 1]⟩ w) (upd : (⟨1, ![E]⟩ : Shape).Idx → EReal) (v : Fin N) :
    Ideal.hostScatterAdd d x idx upd (ix1 v)
      = x (ix1 v) + ∑ e ∈ Finset.univ.filter (fun e : Fin E => (idx (ix2 e (0 : Fin 1))).toInt = (v.val : Int)), upd (ix1 e) := by
  obtain ⟨uw, iw, sd, iv, wf⟩ := d
  simp only at huw hiw hsd hiv
  subst huw hiw hsd hiv
  exact scatterAdd_vec_lit wf x idx upd v

end Scatter

end Cert.GatherScatter
-- ==== Proof.Bridge.lean ====
/-
  The two programs compute one function. Both sum, per destination node `p`, the rows of the edges whose destination
  index is `p` (the set `inc p`), and both count those edges. The reference joins the gathered source rows and the
  edge features into rows of `256` coordinates before summing; the kernel sums the two halves apart: the same sums,
  coordinate by coordinate. The reference divides the aggregate by `max (deg p) 1` and then applies the remap weight;
  the kernel applies the two halves of the weight and then divides: one hidden row, because the divisor is a count
  (`Cert.Msg.hn_eq_hnJoined`). What follows — the two output products, the clamp at zero, the row normalisation — is the
  same operation in both programs.
-/
import proofs.«113616_j35304631173416_2_alg».proof.Proof.HostSide
import proofs.«113616_j35304631173416_2_alg».proof.Proof.RefSide
import proofs.«113616_j35304631173416_2_alg».proof.Proof.LibGatherScatter
import proofs.«113616_j35304631173416_2_alg».proof.Proof.LibColumn
import proofs.«113616_j35304631173416_2_alg».proof.Proof.Algebra
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.Host Cert.Msg
open Cert.KernelIdeal.Node (out)
open Cert.KernelIdeal.Edge (eh)
open Cert.ReferenceIdeal.Read
open Cert.ReferenceIdeal.RefValue (edge_apply node_apply)
open Idealize.ShloMosaic Idealize.ShloMosaic.ValueIdx
open scoped BigOperators

/-- The edges whose destination index, read signed, is the node `p`. -/
def inc (x8 : CI S800000) (p : Fin 50000) : Finset (Fin 800000) :=
  Finset.univ.filter (fun e : Fin 800000 => ((dcol x8 : IVec S800000x1 32) (ix2 e (0 : Fin 1))).toInt = (p.val : Int))

/-! ## The layout operations at an index -/

theorem wt_apply (x3 : CF S128x64) (k : Fin 64) (j : Fin 128) : wt x3 (ix2 k j) = x3 (ix2 j k) :=
  transpose_apply [1, 0] x3 transposes_S128x64_S64x128_1_0 (ix2 k j) (ix2 j k)
    (fun b => by match b with | ⟨0, _⟩ => rfl | ⟨1, _⟩ => rfl)

theorem tr_apply (w : CF S128x128) (k j : Fin 128) : tr w (ix2 k j) = w (ix2 j k) :=
  transpose_apply [1, 0] w transposes_S128x128_S128x128_1_0 (ix2 k j) (ix2 j k)
    (fun b => by match b with | ⟨0, _⟩ => rfl | ⟨1, _⟩ => rfl)

theorem wr1_apply (x4 : CF S128x256) (k' k : Fin 128) : wr1 x4 (ix2 k' k) = x4 (ix2 k (Fin.castAdd 128 k')) := by
  unfold wr1
  refine (transpose_apply [1, 0] _ transposes_S128x128_S128x128_1_0 (ix2 k' k) (ix2 k k')
    (fun b => by match b with | ⟨0, _⟩ => rfl | ⟨1, _⟩ => rfl)).trans ?_
  exact extractStridedSlice_apply ![0, 0] x4 slices_S128x256_S128x128_0_0 (ix2 k k') (ix2 k (Fin.castAdd 128 k'))
    (fun a => by
      match a with
      | ⟨0, _⟩ => show k.val = 0 + k.val; omega
      | ⟨1, _⟩ => show k'.val = 0 + k'.val; omega)

theorem wr2_apply (x4 : CF S128x256) (k' k : Fin 128) : wr2 x4 (ix2 k' k) = x4 (ix2 k (Fin.natAdd 128 k')) := by
  unfold wr2
  refine (transpose_apply [1, 0] _ transposes_S128x128_S128x128_1_0 (ix2 k' k) (ix2 k k')
    (fun b => by match b with | ⟨0, _⟩ => rfl | ⟨1, _⟩ => rfl)).trans ?_
  exact extractStridedSlice_apply ![0, 128] x4 slices_S128x256_S128x128_0_128 (ix2 k k') (ix2 k (Fin.natAdd 128 k'))
    (fun a => by
      match a with
      | ⟨0, _⟩ => show k.val = 0 + k.val; omega
      | ⟨1, _⟩ => show 128 + k'.val = 128 + k'.val; rfl)

/-! ## The sums per destination node -/

/-- A float word spread over any shape reads that word's value at every index. -/
theorem splat_apply {t : Shape} (h : S_.BroadcastsInDim t (![] : Fin 0 → Fin t.rank)) (b : BitVec FTy.f32.bits) (i : t.Idx) :
    broadcastInDim t ![] h (constant (F := Ideal) S_ .f32 b) i = Ideal.ofBits .f32 b := rfl

/-- The kernel's aggregate is the exact scatter-add into zeros at the destination column. -/
theorem agg_eq (x8 : CI S800000) (u : CF S800000x128) :
    agg x8 u = Ideal.hostScatterAdd scatter_S50000x128_S800000x1_S800000x128_1_0_0_1
      (broadcastInDim S50000x128 ![] bcast_S_S50000x128 (constant (F := Ideal) S_ .f32 0x00000000#32)) (dcol x8) u := rfl

/-- The kernel's aggregate of `u` at `(p, k)`: zero plus the sum over the edges into `p`. -/
theorem agg_apply (x8 : CI S800000) (u : CF S800000x128) (p : Fin 50000) (k : Fin 128) :
    agg x8 u (ix2 p k) = c0 + ∑ e ∈ inc x8 p, u (ix2 e k) := by
  have h := @Cert.GatherScatter.scatterAdd_rows_apply 50000 800000 128 32
    scatter_S50000x128_S800000x1_S800000x128_1_0_0_1 rfl rfl rfl rfl
    (broadcastInDim S50000x128 ![] bcast_S_S50000x128 (constant (F := Ideal) S_ .f32 0x00000000#32)) (dcol x8) u p k
  have h2 : (broadcastInDim S50000x128 ![] bcast_S_S50000x128 (constant (F := Ideal) S_ .f32 0x00000000#32)) (ix2 p k)
      + ∑ e ∈ inc x8 p, u (ix2 e k) = c0 + ∑ e ∈ inc x8 p, u (ix2 e k) :=
    congrArg (· + ∑ e ∈ inc x8 p, u (ix2 e k)) (splat_apply _ _ _)
  exact (congrFun (agg_eq x8 u) (ix2 p k)).trans (h.trans h2)

/-- The kernel's degree is the exact scatter-add of ones into zeros at the destination column. -/
theorem deg_eq (x8 : CI S800000) :
    deg x8 = Ideal.hostScatterAdd scatter_S50000_S800000x1_S800000_n_0_0_1
      (broadcastInDim S50000 ![] bcast_S_S50000 (constant (F := Ideal) S_ .f32 0x00000000#32)) (dcol x8)
      (broadcastInDim S800000 ![] bcast_S_S800000 (constant (F := Ideal) S_ .f32 0x3F800000#32)) := rfl

/-- The kernel's degree column at `p`: the number of edges into `p`. -/
theorem degc_apply (x8 : CI S800000) (p : Fin 50000) :
    degc x8 (ix2 p (0 : Fin 1)) = (((inc x8 p).card : ℝ) : EReal) := by
  have h := @Cert.GatherScatter.scatterAdd_vec_apply 50000 800000 32 scatter_S50000_S800000x1_S800000_n_0_0_1
    rfl rfl rfl rfl
    (broadcastInDim S50000 ![] bcast_S_S50000 (constant (F := Ideal) S_ .f32 0x00000000#32)) (dcol x8)
    (broadcastInDim S800000 ![] bcast_S_S800000 (constant (F := Ideal) S_ .f32 0x3F800000#32)) p
  have h2 : (broadcastInDim S50000 ![] bcast_S_S50000 (constant (F := Ideal) S_ .f32 0x00000000#32)) (ix1 p)
      + ∑ e ∈ inc x8 p, (broadcastInDim S800000 ![] bcast_S_S800000 (constant (F := Ideal) S_ .f32 0x3F800000#32)) (ix1 e)
      = (((inc x8 p).card : ℝ) : EReal) :=
    (congrArg₂ (· + ·) (splat_apply _ _ _) (Finset.sum_congr rfl fun e _ => splat_apply _ _ _)).trans
      (zero_add_sum_one (inc x8 p))
  refine (Cert.LibColumn.shapeCast_a_a1_apply (deg x8) shapeCasts_S50000_S50000x1 p 0).trans ?_
  exact (congrFun (deg_eq x8) (ix1 p)).trans (h.trans h2)

/-- The reference's aggregate is the exact scatter-add of the joined rows. -/
theorem v23_eq (x0 : CF S50000x128) (x2 : CF S800000x64) (x3 : CF S128x64) (x7 x8 : CI S800000) :
    val_main_v23 (F := Ideal) x0 x2 x3 x7 x8
      = Ideal.hostScatterAdd Cert.ReferenceIdeal.scatter_S50000x256_S800000x1_S800000x256_1_0_0_1
          (val_main_v21 (F := Ideal)) (val_main_v22 (F := Ideal) x8) (val_main_v20 (F := Ideal) x0 x2 x3 x7) := rfl

/-- The reference's aggregate of the joined rows at `(p, k')`. -/
theorem ragg_apply (x0 : CF S50000x128) (x2 : CF S800000x64) (x3 : CF S128x64) (x7 x8 : CI S800000)
    (p : Fin 50000) (k' : Fin 256) :
    val_main_v23 (F := Ideal) x0 x2 x3 x7 x8 (ix2 p k')
      = c0 + ∑ e ∈ inc x8 p, val_main_v20 (F := Ideal) x0 x2 x3 x7 (ix2 e k') := by
  have h := @Cert.GatherScatter.scatterAdd_rows_apply 50000 800000 256 32
    Cert.ReferenceIdeal.scatter_S50000x256_S800000x1_S800000x256_1_0_0_1 rfl rfl rfl rfl
    (val_main_v21 (F := Ideal)) (val_main_v22 (F := Ideal) x8) (val_main_v20 (F := Ideal) x0 x2 x3 x7) p k'
  have h21 : val_main_v21 (F := Ideal) (ix2 p k') = c0 := by
    rw [val_main_v21_apply, val_main_cst_3_apply]; exact Ideal.ofBits_def _
  have h2 : val_main_v21 (F := Ideal) (ix2 p k') + ∑ e ∈ inc x8 p, val_main_v20 (F := Ideal) x0 x2 x3 x7 (ix2 e k')
      = c0 + ∑ e ∈ inc x8 p, val_main_v20 (F := Ideal) x0 x2 x3 x7 (ix2 e k') :=
    congrArg (· + ∑ e ∈ inc x8 p, val_main_v20 (F := Ideal) x0 x2 x3 x7 (ix2 e k')) h21
  exact (congrFun (v23_eq x0 x2 x3 x7 x8) (ix2 p k')).trans (h.trans h2)

/-- The reference's degree is the exact scatter-add of ones. -/
theorem v27_eq (x8 : CI S800000) :
    val_main_v27 (F := Ideal) x8
      = Ideal.hostScatterAdd Cert.ReferenceIdeal.scatter_S50000_S800000x1_S800000_n_0_0_1
          (val_main_v25 (F := Ideal)) (val_main_v26 (F := Ideal) x8) (val_main_v24 (F := Ideal)) := rfl

/-- The reference's degree at `p`. -/
theorem rdeg_apply (x8 : CI S800000) (p : Fin 50000) :
    val_main_v27 (F := Ideal) x8 (ix1 p) = (((inc x8 p).card : ℝ) : EReal) := by
  have h := @Cert.GatherScatter.scatterAdd_vec_apply 50000 800000 32
    Cert.ReferenceIdeal.scatter_S50000_S800000x1_S800000_n_0_0_1 rfl rfl rfl rfl
    (val_main_v25 (F := Ideal)) (val_main_v26 (F := Ideal) x8) (val_main_v24 (F := Ideal)) p
  have h25 : val_main_v25 (F := Ideal) (ix1 p) = Ideal.ofBits .f32 0x00000000#32 := by
    rw [val_main_v25_apply, val_main_cst_5_apply]; exact Ideal.ofBits_def _
  have h24 : ∀ e : Fin 800000, val_main_v24 (F := Ideal) (ix1 e) = Ideal.ofBits .f32 0x3F800000#32 := fun e => by
    rw [val_main_v24_apply, val_main_cst_4_apply]; exact Ideal.ofBits_def _
  have h2 : val_main_v25 (F := Ideal) (ix1 p) + ∑ e ∈ inc x8 p, val_main_v24 (F := Ideal) (ix1 e)
      = (((inc x8 p).card : ℝ) : EReal) :=
    (congrArg₂ (· + ·) h25 (Finset.sum_congr rfl fun e _ => h24 e)).trans (zero_add_sum_one (inc x8 p))
  exact (congrFun (v27_eq x8) (ix1 p)).trans (h.trans h2)

/-- The joined row's first `128` coordinates are the gathered source row. -/
theorem cat_left (x0 : CF S50000x128) (x2 : CF S800000x64) (x3 : CF S128x64) (x7 : CI S800000)
    (e : Fin 800000) (k : Fin 128) :
    val_main_v20 (F := Ideal) x0 x2 x3 x7 (ix2 e (Fin.castAdd 128 k)) = hsrc x0 x7 (ix2 e k) := by
  unfold val_main_v20
  exact concatenate_pair_apply_left (t := Cert.ReferenceIdeal.S800000x256) (s₁ := Cert.ReferenceIdeal.S800000x128)
    (s₂ := Cert.ReferenceIdeal.S800000x128) (1 : Fin 2) _ _
    Cert.ReferenceIdeal.Gen.concatenates_S800000x128_S800000x128_S800000x256_d1
    (ix2 e (Fin.castAdd 128 k) : Cert.ReferenceIdeal.S800000x256.Idx) rfl
    (ix2 e k : Cert.ReferenceIdeal.S800000x128.Idx)
    (fun b => by match b with | ⟨0, _⟩ => rfl | ⟨1, _⟩ => rfl)

/-- The joined row's last `128` coordinates are the edge features. -/
theorem cat_right (x0 : CF S50000x128) (x2 : CF S800000x64) (x3 : CF S128x64) (x7 : CI S800000)
    (e : Fin 800000) (k : Fin 128) :
    val_main_v20 (F := Ideal) x0 x2 x3 x7 (ix2 e (Fin.natAdd 128 k)) = val_main_v12 (F := Ideal) x2 x3 (ix2 e k) := by
  unfold val_main_v20
  exact concatenate_pair_apply_right (t := Cert.ReferenceIdeal.S800000x256) (s₁ := Cert.ReferenceIdeal.S800000x128)
    (s₂ := Cert.ReferenceIdeal.S800000x128) (1 : Fin 2) _ _
    Cert.ReferenceIdeal.Gen.concatenates_S800000x128_S800000x128_S800000x256_d1
    (ix2 e (Fin.natAdd 128 k) : Cert.ReferenceIdeal.S800000x256.Idx) rfl rfl
    (ix2 e k : Cert.ReferenceIdeal.S800000x128.Idx)
    (fun b hb => by
      match b, hb with
      | ⟨0, _⟩, _ => rfl
      | ⟨1, _⟩, hb => exact absurd rfl hb)
    (by show k.val + 128 = 128 + k.val; omega)

/-- The reference's edge features are the kernel's. -/
theorem eh_eq (x2 : CF S800000x64) (x3 : CF S128x64) (e : Fin 800000) (k : Fin 128) :
    val_main_v12 (F := Ideal) x2 x3 (ix2 e k) = (extf (F := Ideal) .f32 (eh x2 (wt x3)) bitsLt_bf16_f32) (ix2 e k) := by
  rw [edge_apply, l2z_eq]
  show _ = eh x2 (wt x3) (ix2 e k)
  unfold eh
  refine congrArg (fun z => l2 z k) (funext fun j => congrArg (max · c0) (Finset.sum_congr rfl fun k' _ => ?_))
  rw [wt_apply]

/-! ## The two results -/

/-- The kernel's result array is the reference's, as functions of the same nine argument arrays. -/
theorem out_eq (x0 x1 : CF S50000x128) (x2 : CF S800000x64) (x3 : CF S128x64) (x4 : CF S128x256)
    (x5 x6 : CF S128x128) (x7 x8 : CI S800000) :
    out (agg x8 (hsrc x0 x7)) (agg x8 (extf (F := Ideal) .f32 (eh x2 (wt x3)) bitsLt_bf16_f32)) (degc x8) x1
        (wr1 x4) (wr2 x4) (tr x5) (tr x6)
      = val_main_v51 (F := Ideal) x0 x1 x2 x3 x4 x5 x6 x7 x8 := by
  funext i
  obtain ⟨p, q, rfl⟩ : ∃ (p : Fin 50000) (q : Fin 128), i = ix2 p q := ⟨i 0, i 1, eq_ix2 i⟩
  rw [node_apply, l2z_eq]
  show outRow (fun k => x1 (ix2 p k))
      (hn (fun k => agg x8 (hsrc x0 x7) (ix2 p k))
        (fun k => agg x8 (extf (F := Ideal) .f32 (eh x2 (wt x3)) bitsLt_bf16_f32) (ix2 p k))
        (degc x8 (ix2 p (0 : Fin 1))) (fun k' k => wr1 x4 (ix2 k' k)) (fun k' k => wr2 x4 (ix2 k' k)))
      (fun k j => tr x5 (ix2 k j)) (fun k j => tr x6 (ix2 k j)) q = _
  unfold outRow
  refine congrArg (fun z => l2 z q) (funext fun j => congrArg (max · c0)
    (congrArg₂ (· + ·) (Finset.sum_congr rfl fun k _ => ?_) (Finset.sum_congr rfl fun k _ => ?_)))
  · beta_reduce
    rw [tr_apply]
  · beta_reduce
    rw [tr_apply, degc_apply, rdeg_apply]
    refine congrArg (· * x6 (ix2 j k)) ?_
    refine hn_eq_hnJoined _ _ _ _ _ _ (fun k₁ => ?_) (fun k₁ => ?_) (fun k₁ k₂ => ?_) (fun k₁ k₂ => ?_) _ k
    · show val_main_v23 (F := Ideal) x0 x2 x3 x7 x8 (ix2 p (Fin.castAdd 128 k₁)) = agg x8 (hsrc x0 x7) (ix2 p k₁)
      rw [ragg_apply, agg_apply]
      exact congrArg (c0 + ·) (Finset.sum_congr rfl fun e _ => cat_left x0 x2 x3 x7 e k₁)
    · show val_main_v23 (F := Ideal) x0 x2 x3 x7 x8 (ix2 p (Fin.natAdd 128 k₁))
        = agg x8 (extf (F := Ideal) .f32 (eh x2 (wt x3)) bitsLt_bf16_f32) (ix2 p k₁)
      rw [ragg_apply, agg_apply]
      exact congrArg (c0 + ·) (Finset.sum_congr rfl fun e _ => (cat_right x0 x2 x3 x7 e k₁).trans (eh_eq x2 x3 e k₁))
    · exact (wr1_apply x4 k₁ k₂).symm
    · exact (wr2_apply x4 k₁ k₂).symm

end Cert.Bridge

end
-- ==== Proof.lean ====
/-
  A two-kernel message-passing layer against its reference, on the extended reals.

  The program transforms the `800000` edge features by a grid kernel (a product with the edge weight, a clamp at
  zero, a row normalisation), gathers each edge's source row, sums the gathered rows and the transformed edge
  features per destination node and counts each node's incoming edges (host scatter-adds), and finishes with a
  second grid kernel over the `50000` nodes: the two aggregates through the two halves of the remap weight, divided by
  `max (deg, 1)`, clamped; then the node's own features and that hidden row through two more weights, clamped and
  normalised. The reference does the same with the gathered rows and the edge features joined into rows of `256`
  coordinates, dividing the aggregate by `max (deg, 1)` BEFORE the remap weight.

  The three frames are the generated frame of the kernel at both instances and the reference's run with its result
  dropped. The idealization rewrote nothing. The two results are equal index by index: `Cert.Bridge.out_eq`, whose one
  law is that dividing by a count commutes with a finite sum of extended reals (`Cert.Msg.mean_linear`); no finiteness
  of the inputs is used.
-/
import proofs.«113616_j35304631173416_2_alg».proof.Defs
import proofs.«113616_j35304631173416_2_alg».proof.Proof.Gen.Kernel
import proofs.«113616_j35304631173416_2_alg».proof.Proof.Gen.Kernel.Skeleton
import proofs.«113616_j35304631173416_2_alg».proof.Proof.Gen.Kernel.Launch
import proofs.«113616_j35304631173416_2_alg».proof.Proof.Gen.Kernel.Points
import proofs.«113616_j35304631173416_2_alg».proof.Proof.Gen.Kernel.Frame
import proofs.«113616_j35304631173416_2_alg».proof.Proof.Gen.KernelIdeal
import proofs.«113616_j35304631173416_2_alg».proof.Proof.Gen.KernelIdeal.Skeleton
import proofs.«113616_j35304631173416_2_alg».proof.Proof.Gen.KernelIdeal.Launch
import proofs.«113616_j35304631173416_2_alg».proof.Proof.Gen.KernelIdeal.Points
import proofs.«113616_j35304631173416_2_alg».proof.Proof.Gen.KernelIdeal.Frame
import proofs.«113616_j35304631173416_2_alg».proof.Proof.Gen.ReferenceIdeal
import proofs.«113616_j35304631173416_2_alg».proof.Proof.Gen.ReferenceIdeal.Run
import proofs.«113616_j35304631173416_2_alg».proof.Proof.Gen.ReferenceIdeal.Read
import proofs.«113616_j35304631173416_2_alg».proof.Proof.Gen.Pre_finite_inputs
import proofs.«113616_j35304631173416_2_alg».proof.Proof.KRun
import proofs.«113616_j35304631173416_2_alg».proof.Proof.HostSide
import proofs.«113616_j35304631173416_2_alg».proof.Proof.RefSide
import proofs.«113616_j35304631173416_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the same result array: the kernel's run
    names its result as a function of the launch contents, the reference's run names its own, and the two functions
    are one. -/
theorem algebraic : Cert.algebraic_KernelIdeal_ReferenceIdeal := by
  intro m ρ m' ρ' _ hagree
  refine ⟨fun c => Cert.KernelIdeal.Gen.W4 m ρ c (Proc.devRef .tc Cert.KernelIdeal.main_v27),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v51 m' c
    = Cert.KernelIdeal.Gen.W4 m ρ c (Proc.devRef .tc Cert.KernelIdeal.main_v27)
  rw [Cert.ReferenceIdeal.Read.val_main_v51_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2, Cert.KernelIdeal.Host.result_eq]
  exact (Cert.Bridge.out_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
